-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S3x256x256 : Shape := ⟨3, ![3, 256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_

variable [Facts]

def fn_part1 {F : FTy → Type} [FloatOps F] (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S256x256 .f32) (main_arg3 : FVec F S256 .f32) (main_arg4 : FVec F S3x256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S3x256x256 : Shape := ⟨3, ![3, 256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S2000x256 : Shape := ⟨2, ![2000, 256]⟩
abbrev S800000x256 : Shape := ⟨2, ![800000, 256]⟩
abbrev S1x256x256 : Shape := ⟨3, ![1, 256, 256]⟩
abbrev S2000x1 : Shape := ⟨2, ![2000, 1]⟩

abbrev nBuf : Space → Nat
  | .hbm => 70
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S3x256x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S1x256, .f32⟩
  | .hbm, ⟨20, _⟩ => ⟨S50000x256, .f32⟩
  | .hbm, ⟨21, _⟩ => ⟨S3x256x256, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S1x256x256, .f32⟩
  | .hbm, ⟨36, _⟩ => ⟨S256x256, .f32⟩
  | .hbm, ⟨37, _⟩ => ⟨S50000x256, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x256, .f32⟩
  | .hbm, ⟨47, _⟩ => ⟨S_, .f32⟩
  | .hbm, ⟨48, _⟩ => ⟨S50000x256, .f32⟩
  | .hbm, ⟨49, _⟩ => ⟨S800000x1, .i32⟩
  | .hbm, ⟨50, _⟩ => ⟨S50000x256, .f32⟩
  | .hbm, ⟨51, _⟩ => ⟨S1x256x256, .f32⟩
  | .hbm, ⟨52, _⟩ => ⟨S256x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S1x256x256, .f32⟩
  | .hbm, ⟨68, _⟩ => ⟨S256x256, .f32⟩
  | .hbm, ⟨69, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S2000x1, .f32⟩
  | .local _ .vmem, ⟨10, _⟩ => ⟨S2000x1, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S2000x1, .f32⟩
  | .local _ .vmem, ⟨24, _⟩ => ⟨S2000x1, .f32⟩
  | .local _ .vmem, ⟨25, _⟩ => ⟨S2000x256, .f32⟩
  | .local _ .vmem, ⟨26, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  transposes_S3x256x256_S3x256x256_0_2_1 : S3x256x256.Transposes [0, 2, 1] S3x256x256
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  shapeCasts_S2000x256_S2000x256 : S2000x256.ShapeCasts S2000x256
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  slices_S3x256x256_S1x256x256_1_0_0 : S3x256x256.Slices ![1, 0, 0] S1x256x256
  slices_S3x256x256_S1x256x256_2_0_0 : S3x256x256.Slices ![2, 0, 0] S1x256x256
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S3x256x256 : Shape := ⟨3, ![3, 256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256 : Shape := ⟨2, ![1, 256]⟩
abbrev S800000x256 : Shape := ⟨2, ![800000, 256]⟩
abbrev S1x256x256 : Shape := ⟨3, ![1, 256, 256]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S3x256x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S50000x256, .f32⟩
  | .hbm, ⟨16, _⟩ => ⟨S1x256, .f32⟩
  | .hbm, ⟨17, _⟩ => ⟨S50000x256, .f32⟩
  | .hbm, ⟨18, _⟩ => ⟨S50000x256, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S1x256x256, .f32⟩
  | .hbm, ⟨33, _⟩ => ⟨S256x256, .f32⟩
  | .hbm, ⟨34, _⟩ => ⟨S256x256, .f32⟩
  | .hbm, ⟨35, _⟩ => ⟨S50000x256, .f32⟩
  | .hbm, ⟨36, _⟩ => ⟨S50000x1, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S1x256x256, .f32⟩
  | .hbm, ⟨56, _⟩ => ⟨S256x256, .f32⟩
  | .hbm, ⟨57, _⟩ => ⟨S256x256, .f32⟩
  | .hbm, ⟨58, _⟩ => ⟨S50000x256, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x256, .f32⟩
  | .hbm, ⟨74, _⟩ => ⟨S_, .f32⟩
  | .hbm, ⟨75, _⟩ => ⟨S50000x256, .f32⟩
  | .hbm, ⟨76, _⟩ => ⟨S800000x1, .i32⟩
  | .hbm, ⟨77, _⟩ => ⟨S50000x256, .f32⟩
  | .hbm, ⟨78, _⟩ => ⟨S1x256x256, .f32⟩
  | .hbm, ⟨79, _⟩ => ⟨S256x256, .f32⟩
  | .hbm, ⟨80, _⟩ => ⟨S256x256, .f32⟩
  | .hbm, ⟨81, _⟩ => ⟨S50000x256, .f32⟩
  | .hbm, ⟨82, _⟩ => ⟨S50000x1, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call1_cst : Ref sig .tc := ⟨.hbm, 62, rfl⟩
abbrev main_call1_v0 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call2_cst : Ref sig .tc := ⟨.hbm, 85, rfl⟩
abbrev main_call2_v0 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S3x256x256_S1x256x256_1_0_0 : S3x256x256.Slices ![1, 0, 0] S1x256x256
  slices_S3x256x256_S1x256x256_2_0_0 : S3x256x256.Slices ![2, 0, 0] S1x256x256
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.ResultRun.lean ====
/-
  The kernel program's run, with its RESULT named.

  The frame certificate launches the program's eight segments — four stretches of host operations and four pallas_calls — and
  follows every unscoped buffer of the TensorCore from the launch memory through each segment: after a host stretch a buffer
  holds what the stretch's operations leave there, after a pallas_call the call's arrays hold what its write-backs leave and
  every other buffer is as the call found it. At the end every unscoped buffer holds the last stage of that fold. The frame
  claim keeps only the five argument buffers of this fact. Here the same launch is read once more and the result buffer is
  kept as well: it ends holding the fold's last stage at the result buffer, which the next module opens stage by stage.
-/
import proofs.«171556_j438086664818_1_alg».proof.Proof.KernelIdealFrameP

set_option maxRecDepth 16384

noncomputable section

namespace Cert.KernelIdeal.ResultRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's last
    stage and the five argument buffers as launched. -/
theorem run : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.ResultRun

end
-- ==== Proof.BlockProduct.lean ====
/-
  A row block times the weights, read at one entry.

  Every pallas_call of this program multiplies a block of 2000 rows of 256 features by a 256 × 256 matrix on the matrix
  unit, into a zero accumulator. Over the extended reals that product is the textbook contraction: entry `(p, q)` of
  the block is the sum over `k` of `A (p, k) * B (k, q)`, whatever the operands' float formats (a change of format is
  the identity there). The contraction runs over a one-axis index type; it is re-indexed by `Fin 256`, and the two
  operand indices of the dimension numbers at `k` are `(p, k)` and `(k, q)`: the first axis of the left operand is the
  output's row, its second the contracted one; the first axis of the right operand the contracted one, its second the
  output's column.
-/
import proofs.«171556_j438086664818_1_alg».proof.Proof.Gen.KernelIdeal
import Idealize.ShloMosaic.Lib.ValueIdx
import Idealize.ShloMosaic.PureOps.Ideal.Laws

noncomputable section

namespace Cert.KernelIdeal.BlockProduct

open Cert.KernelIdeal Idealize.ShloMosaic Idealize.ShloMosaic.ValueIdx

theorem lhs_row (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs_contracted (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q

theorem rhs_contracted (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q

theorem rhs_column (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block product into a zero accumulator, at entry `(p, q)`: the sum over `k` of `A (p, k) * B (k, q)`. -/
theorem matmul_zero_apply {φ₁ φ₂ : FTy} (A : FVec Ideal S2000x256 φ₁) (B : FVec Ideal S256x256 φ₂) (p : Fin 2000) (q : Fin 256) :
    matmul dot_S2000x256_S256x256_S2000x256_1_0_0_1_n_n none A B (constant S2000x256 .f32 0x00000000#32) (ix2 p q)
      = ∑ k : Fin 256, A (ix2 p k) * B (ix2 k q) := by
  show FloatOps.matmul dot_S2000x256_S256x256_S2000x256_1_0_0_1_n_n none A B (constant S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k :=
    funext fun a => Fin.ext (by
      match a with
      | ⟨0, _⟩ => exact lhs_row _ _
      | ⟨1, _⟩ => exact (lhs_contracted _ _).trans hk)
  have er : dot_S2000x256_S256x256_S2000x256_1_0_0_1_n_n.rhsIdx (ix2 p q) ((contrEquiv1 dot_S2000x256_S256x256_S2000x256_1_0_0_1_n_n 256 rfl rfl).symm k) = ix2 k q :=
    funext fun a => Fin.ext (by
      match a with
      | ⟨0, _⟩ => exact (rhs_contracted _ _).trans hk
      | ⟨1, _⟩ => exact rhs_column _ _)
  rw [el, er]

end Cert.KernelIdeal.BlockProduct

end
-- ==== Proof.Payloads.lean ====
/-
  What one grid point stores, read at one entry of its 2000-row block.

  The first body stores `x_blk · U + bias`: entry `(p, q)` is the inner product of row `p` of the point's block of `x` with
  column `q` of the weights, plus the bias row at `q` (the bias is one row broadcast down the block). The three later bodies
  store `max ((A_blk · W) * r_blk, 0)`: the same inner product, times the block's scale column at row `p` (one column
  broadcast across the block), clamped below at zero. The narrowing of the operands to a 16-bit format before the matrix unit,
  and the shape casts of a block to its own shape, are the identity over the extended reals, and the zero pattern denotes `0`.
-/
import proofs.«171556_j438086664818_1_alg».proof.Proof.Gen.KernelIdeal.Skeleton
import proofs.«171556_j438086664818_1_alg».proof.Proof.BlockProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx Idealize.ShloMosaic.Pipeline

/-- One column broadcast across a block: a `[2000, 1]` array broadcast to `[2000, 256]` reads, at `(p, q)`, the column at row `p`. -/
theorem column_broadcast {α : Type} (v : (⟨2, ![2000, 1]⟩ : Shape).Idx → α)
    (h : (⟨2, ![2000, 1]⟩ : Shape).Broadcasts ⟨2, ![2000, 256]⟩) (p : Fin 2000) (q : Fin 256) :
    broadcastTo ⟨2, ![2000, 256]⟩ v h (ix2 p q) = v (ix2 p (0 : Fin 1)) := by
  refine broadcastTo_apply v h (ix2 p q) (ix2 p (0 : Fin 1)) fun ax => ?_
  match ax with
  | ⟨0, _⟩ =>
    show p.val = if (2000 : ℕ) = 1 then 0 else p.val
    rw [if_neg (by decide)]
  | ⟨1, _⟩ =>
    show (0 : ℕ) = if (1 : ℕ) = 1 then 0 else q.val
    rw [if_pos rfl]

/-- The affine body's stored value at `(p, q)`: row `p` of the block of `x` against column `q` of `U`, plus the bias at `q`. -/
theorem affine_payload (x0 : Vec Ideal S2000x256 .f32) (x1 : Vec Ideal S256x256 .f32) (x2 : Vec Ideal S1x256 .f32)
    (p : Fin 2000) (q : Fin 256) :
    k0_pay1 x0 x1 x2 (ix2 p q) = (∑ k : Fin 256, x0 (ix2 p k) * x1 (ix2 k q)) + x2 (ix2 (0 : Fin 1) q) := by
  unfold k0_pay1
  show (matmul (F := Ideal) dot_S2000x256_S256x256_S2000x256_1_0_0_1_n_n none (truncf (F := Ideal) .bf16 x0 bitsLt_bf16_f32) (truncf (F := Ideal) .bf16 x1 bitsLt_bf16_f32)
        (constant (F := Ideal) S2000x256 .f32 0x00000000#32) (ix2 p q))
      + (broadcastTo S2000x256 (shapeCast S1x256 x2 shapeCasts_S1x256_S1x256) broadcasts_S1x256_S2000x256 (ix2 p q)) = _
  rw [shapeCast_self x2, BlockProduct.matmul_zero_apply, broadcastTo_1b_ab_apply]
  rfl

/-- A normalised body's stored value at `(p, q)`: row `p` of the block of `A` against column `q` of `W`, times the scale of row `p`,
    clamped below at zero. -/
theorem scaled_payload1 (x0 : Vec Ideal S2000x256 .f32) (x1 : Vec Ideal S256x256 .f32) (x2 : Vec Ideal S2000x1 .f32)
    (p : Fin 2000) (q : Fin 256) :
    k1_pay1 x0 x1 x2 (ix2 p q) = max ((∑ k : Fin 256, x0 (ix2 p k) * x1 (ix2 k q)) * x2 (ix2 p (0 : Fin 1))) 0 := by
  unfold k1_pay1
  show max ((matmul (F := Ideal) dot_S2000x256_S256x256_S2000x256_1_0_0_1_n_n none (truncf (F := Ideal) .bf16 (shapeCast S2000x256 x0 shapeCasts_S2000x256_S2000x256) bitsLt_bf16_f32)
          (truncf (F := Ideal) .bf16 (shapeCast S256x256 x1 shapeCasts_S256x256_S256x256) bitsLt_bf16_f32)
          (constant (F := Ideal) S2000x256 .f32 0x00000000#32) (ix2 p q))
        * (broadcastTo S2000x256 (shapeCast S2000x1 x2 shapeCasts_S2000x1_S2000x1) broadcasts_S2000x1_S2000x256 (ix2 p q)))
      (Ideal.ofBits .f32 0x00000000#32) = _
  rw [shapeCast_self x0, shapeCast_self x1, shapeCast_self x2, BlockProduct.matmul_zero_apply, column_broadcast,
    Ideal.ofBits_zero_f32]
  rfl

/-- The same for pallas_call 2's body (the same text under another name): its stored value at `(p, q)`: row `p` of the block of `A` against column `q` of `W`, times the scale of row `p`,
    clamped below at zero. -/
theorem scaled_payload2 (x0 : Vec Ideal S2000x256 .f32) (x1 : Vec Ideal S256x256 .f32) (x2 : Vec Ideal S2000x1 .f32)
    (p : Fin 2000) (q : Fin 256) :
    k2_pay1 x0 x1 x2 (ix2 p q) = max ((∑ k : Fin 256, x0 (ix2 p k) * x1 (ix2 k q)) * x2 (ix2 p (0 : Fin 1))) 0 := by
  unfold k2_pay1
  show max ((matmul (F := Ideal) dot_S2000x256_S256x256_S2000x256_1_0_0_1_n_n none (truncf (F := Ideal) .bf16 (shapeCast S2000x256 x0 shapeCasts_S2000x256_S2000x256) bitsLt_bf16_f32)
          (truncf (F := Ideal) .bf16 (shapeCast S256x256 x1 shapeCasts_S256x256_S256x256) bitsLt_bf16_f32)
          (constant (F := Ideal) S2000x256 .f32 0x00000000#32) (ix2 p q))
        * (broadcastTo S2000x256 (shapeCast S2000x1 x2 shapeCasts_S2000x1_S2000x1) broadcasts_S2000x1_S2000x256 (ix2 p q)))
      (Ideal.ofBits .f32 0x00000000#32) = _
  rw [shapeCast_self x0, shapeCast_self x1, shapeCast_self x2, BlockProduct.matmul_zero_apply, column_broadcast,
    Ideal.ofBits_zero_f32]
  rfl

/-- The same for pallas_call 3's body (the same text under another name): its stored value at `(p, q)`: row `p` of the block of `A` against column `q` of `W`, times the scale of row `p`,
    clamped below at zero. -/
theorem scaled_payload3 (x0 : Vec Ideal S2000x256 .f32) (x1 : Vec Ideal S256x256 .f32) (x2 : Vec Ideal S2000x1 .f32)
    (p : Fin 2000) (q : Fin 256) :
    k3_pay1 x0 x1 x2 (ix2 p q) = max ((∑ k : Fin 256, x0 (ix2 p k) * x1 (ix2 k q)) * x2 (ix2 p (0 : Fin 1))) 0 := by
  unfold k3_pay1
  show max ((matmul (F := Ideal) dot_S2000x256_S256x256_S2000x256_1_0_0_1_n_n none (truncf (F := Ideal) .bf16 (shapeCast S2000x256 x0 shapeCasts_S2000x256_S2000x256) bitsLt_bf16_f32)
          (truncf (F := Ideal) .bf16 (shapeCast S256x256 x1 shapeCasts_S256x256_S256x256) bitsLt_bf16_f32)
          (constant (F := Ideal) S2000x256 .f32 0x00000000#32) (ix2 p q))
        * (broadcastTo S2000x256 (shapeCast S2000x1 x2 shapeCasts_S2000x1_S2000x1) broadcasts_S2000x1_S2000x256 (ix2 p q)))
      (Ideal.ofBits .f32 0x00000000#32) = _
  rw [shapeCast_self x0, shapeCast_self x1, shapeCast_self x2, BlockProduct.matmul_zero_apply, column_broadcast,
    Ideal.ofBits_zero_f32]
  rfl

end Cert.KernelIdeal.Payloads

end
-- ==== Proof.QuotientLaw.lean ====
/-
  The one algebraic law this certificate rests on, over the extended reals and with no program in sight.

  One side normalises a row of a matrix product by MULTIPLYING with a reciprocal computed beforehand, `a * (1 / d)`; the
  other DIVIDES, `a / d`; both then clamp below at zero. Here `d` is a node's in-degree, a count, and nothing keeps it
  away from zero (a node may have no incoming edge). Division on the extended reals is `x * y⁻¹` away from `y = 0`,
  while `x / 0` is `⊤` for positive `x` and `⊥` otherwise. So for `d ≠ 0` the two quotients are literally the same
  product (`1 * d⁻¹ = d⁻¹`), but at `d = 0` they DIFFER when `a = 0`: `0 * (1 / 0) = 0 * ⊤ = 0` against `0 / 0 = ⊥`.
  The clamp at zero absorbs exactly that difference, `max 0 0 = max ⊥ 0 = 0`, and for `a > 0` both are `⊤`, for `a < 0`
  both are `⊥`. Hence the law is about the CLAMPED quotients, holds for every pair of extended reals, and needs no
  finiteness of anything.
-/
import Idealize.ShloMosaic.PureOps.Ideal
import Idealize.ShloMosaic.PureOps.Ideal.Laws

noncomputable section

namespace Cert.DegreeNorm

open Idealize.ShloMosaic

/-- The pattern of `1.0` denotes the extended real `1`. -/
theorem ofBits_one : Ideal.ofBits .f32 0x3F800000#32 = 1 := by
  simp [Ideal.ofBits, Ideal.ieee, -EReal.coe_mul]; norm_num

/-- Clamped below at zero, multiplying by the reciprocal `1 / d` and dividing by `d` agree for ALL extended reals:
    away from `d = 0` the two are one product; at `d = 0` they are `⊤`, `0`, `⊥` against `⊤`, `⊥`, `⊥` as `a` is
    positive, zero, negative, and the clamp sends both triples to `⊤`, `0`, `0`. -/
theorem max_mul_reciprocal (a d : EReal) : max (a * Ideal.div 1 d) 0 = max (Ideal.div a d) 0 := by
  unfold Ideal.div
  by_cases hd : d = 0
  · rw [if_pos hd, if_pos hd, if_pos (zero_lt_one : (0 : EReal) < 1)]
    rcases lt_trichotomy 0 a with ha | ha | ha
    · rw [if_pos ha, EReal.mul_top_of_pos ha]
    · subst ha
      rw [zero_mul, if_neg (lt_irrefl _), max_self, max_eq_right bot_le]
    · rw [if_neg (not_lt.mpr ha.le), EReal.mul_top_of_neg ha]
  · rw [if_neg hd, if_neg hd, one_mul]

end Cert.DegreeNorm

end
-- ==== Proof.Layers.lean ====
/-
  The two dense layers of the network, each as ONE function of whole arrays, index by index over the extended reals.
  No program appears here: these are the functions both programs will be shown to compute.

  Fifty thousand nodes carry 256 features each. The first layer is affine: row `p` of `x · U` plus a bias row,
      (affine x U b) (p, q) = (∑ k, x (p, k) * U (k, q)) + b (0, q).
  Every later layer takes an aggregated feature array `A`, multiplies by a weight matrix, rescales row `p` by that
  row's own factor `r (p, 0)` (the reciprocal of the node's in-degree) and clamps below at zero,
      (scaledRelu A W r) (p, q) = max ((∑ k, A (p, k) * W (k, q)) * r (p, 0)) 0.
  Sums over the extended reals are sums in a commutative monoid, so their order and grouping are immaterial; nothing here
  distributes a product over a sum, so no finiteness is asked of any entry.
-/
import Idealize.ShloMosaic.PureOps.Ideal
import Idealize.ShloMosaic.Lib.ValueIdx
import proofs.«171556_j438086664818_1_alg».proof.Proof.QuotientLaw

noncomputable section

namespace Cert.DegreeNorm

open Idealize.ShloMosaic Idealize.ShloMosaic.ValueIdx

/-- Node features: 50000 nodes by 256 features. -/
abbrev Nodes : Shape := ⟨2, ![50000, 256]⟩
/-- A layer's weights: 256 by 256. -/
abbrev Weights : Shape := ⟨2, ![256, 256]⟩
/-- The bias, kept as one row of 256. -/
abbrev BiasRow : Shape := ⟨2, ![1, 256]⟩
/-- One scale factor per node, kept as a column. -/
abbrev ScaleCol : Shape := ⟨2, ![50000, 1]⟩

/-- The affine layer: entry `(p, q)` is the inner product of row `p` of `x` with column `q` of `U`, plus the bias at `q`. -/
def affine (x : Nodes.Idx → EReal) (U : Weights.Idx → EReal) (b : BiasRow.Idx → EReal) : Nodes.Idx → EReal :=
  fun i => (∑ k : Fin 256, x (ix2 (n0 := 50000) (n1 := 256) (i 0) k) * U (ix2 (n0 := 256) (n1 := 256) k (i 1)))
    + b (ix2 (n0 := 1) (n1 := 256) 0 (i 1))

/-- A normalised layer: entry `(p, q)` is the inner product of row `p` of `A` with column `q` of `W`, times the
    factor of row `p`, clamped below at zero. -/
def scaledRelu (A : Nodes.Idx → EReal) (W : Weights.Idx → EReal) (r : ScaleCol.Idx → EReal) : Nodes.Idx → EReal :=
  fun i => max ((∑ k : Fin 256, A (ix2 (n0 := 50000) (n1 := 256) (i 0) k) * W (ix2 (n0 := 256) (n1 := 256) k (i 1)))
    * r (ix2 (n0 := 50000) (n1 := 1) (i 0) 0)) 0

/-- When row `p`'s factor is the reciprocal `1 / d p` of a per-node divisor, the normalised layer is the quotient by
    that divisor, clamped: the law of `max_mul_reciprocal`, entry by entry, whatever the divisor (zero included). -/
theorem scaledRelu_reciprocal (A : Nodes.Idx → EReal) (W : Weights.Idx → EReal) (r : ScaleCol.Idx → EReal)
    (d : Fin 50000 → EReal) (hr : ∀ p : Fin 50000, r (ix2 (n0 := 50000) (n1 := 1) p 0) = Ideal.div 1 (d p)) (i : Nodes.Idx) :
    scaledRelu A W r i
      = max (Ideal.div (∑ k : Fin 256, A (ix2 (n0 := 50000) (n1 := 256) (i 0) k) * W (ix2 (n0 := 256) (n1 := 256) k (i 1))) (d (i 0))) 0 := by
  unfold scaledRelu
  rw [hr (i 0)]
  exact max_mul_reciprocal _ _

end Cert.DegreeNorm

end
-- ==== Proof.Region0.lean ====
/-
  The first pallas_call, as a whole-array fact: whatever the buffers hold when it is entered, its result array ends holding
  the affine layer of the three arrays it reads.

  The grid has 25 points. Point `t` reads rows `2000 t … 2000 t + 1999` of the feature array, the whole weight matrix and the
  whole bias row, and writes back rows `2000 t … 2000 t + 1999` of the result. Entry `(p, q)` of what it writes is the
  affine layer at row `2000 t + p`, column `q`: the row of the block IS that row of the array, and weights and bias are read
  whole. The 25 row blocks tile the 50000 rows — row `r` lies in block `r / 2000` — so every entry of the result is written
  by exactly the point that owns its row, and the array ends as the affine layer everywhere.
-/
import proofs.«171556_j438086664818_1_alg».proof.Proof.KernelIdealFrameP
import proofs.«171556_j438086664818_1_alg».proof.Proof.Payloads
import proofs.«171556_j438086664818_1_alg».proof.Proof.Layers
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.GenP Cert.DegreeNorm
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window and the result window sit at row block `t`, column block 0;
    the weights and the bias are always block (0, 0). -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the affine layer of the arrays as the region finds them. -/
theorem flushed_eq (c : Dev nD) (t : Fin cfg0.N) :
    (dat0 V c).flushed 3 t
      = ((cfg0.win 3).blk t).view.read (Elt Ideal) (affine (V c main_arg0) (V c main_arg2) (V c main_v11)) := by
  show (cfg0.win 3).cut (grid0.coords t) ((dat0 V c).after 3 t) = _
  rw [after0_3]
  unfold out0_3
  rw [View.canon_unit_zero origin]
  simp only [View.ld_unit_zero (S := S2000x256) origin, View.ld_unit_zero (S := S256x256) origin,
    View.ld_unit_zero (S := S1x256) origin]
  obtain ⟨e0, e1, e2, e3, e4, e5, e6, e7⟩ := index_facts t
  show (k0_pay1 (iblk0 V c 0 t) (iblk0 V c 1 t) (iblk0 V c 2 t) : S2000x256.Idx → EReal)
    = fun j : S2000x256.Idx => affine (V c main_arg0) (V c main_arg2) (V c main_v11) (((cfg0.win 3).blk t).view.emb j)
  funext j
  obtain ⟨p, q, rfl⟩ : ∃ (p : Fin 2000) (q : Fin 256), j = ix2 p q := ⟨j 0, j 1, eq_ix2 j⟩
  refine (Payloads.affine_payload (iblk0 V c 0 t) (iblk0 V c 1 t) (iblk0 V c 2 t) p q).trans ?_
  unfold affine
  -- each input block, read at an entry, is its array at the entry the result's block index points to
  have hx : ∀ k : Fin 256, (iblk0 V c 0 t : S2000x256.Idx → EReal) (ix2 p k)
      = V c main_arg0 (ix2 (n0 := 50000) (n1 := 256) ((((cfg0.win 3).blk t).view.emb (ix2 p q)) 0) k) := fun k => by
    unfold iblk0
    rw [View.read_apply]
    refine congrArg (V c main_arg0) (funext fun a => Fin.ext ?_)
    match a with
    | ⟨0, _⟩ =>
      show win0_0.index t (0 : Fin 2) * 2000 + 1 * p.val = win0_3.index t (0 : Fin 2) * 2000 + 1 * p.val
      rw [e0]
    | ⟨1, _⟩ =>
      show win0_0.index t (1 : Fin 2) * 256 + 1 * k.val = k.val
      rw [e1]; omega
  have hu : ∀ k : Fin 256, (iblk0 V c 1 t : S256x256.Idx → EReal) (ix2 k q)
      = V c main_arg2 (ix2 (n0 := 256) (n1 := 256) k ((((cfg0.win 3).blk t).view.emb (ix2 p q)) 1)) := fun k => by
    unfold iblk0
    rw [View.read_apply]
    refine congrArg (V c main_arg2) (funext fun a => Fin.ext ?_)
    match a with
    | ⟨0, _⟩ =>
      show win0_1.index t (0 : Fin 2) * 256 + 1 * k.val = k.val
      rw [e2]; omega
    | ⟨1, _⟩ =>
      show win0_1.index t (1 : Fin 2) * 256 + 1 * q.val = win0_3.index t (1 : Fin 2) * 256 + 1 * q.val
      rw [e3, e7]
  have hb : (iblk0 V c 2 t : S1x256.Idx → EReal) (ix2 (0 : Fin 1) q)
      = V c main_v11 (ix2 (n0 := 1) (n1 := 256) 0 ((((cfg0.win 3).blk t).view.emb (ix2 p q)) 1)) := by
    unfold iblk0
    rw [View.read_apply]
    refine congrArg (V c main_v11) (funext fun a => Fin.ext ?_)
    match a with
    | ⟨0, _⟩ =>
      show win0_2.index t (0 : Fin 2) * 1 + 1 * 0 = 0
      rw [e4]
    | ⟨1, _⟩ =>
      show win0_2.index t (1 : Fin 2) * 256 + 1 * q.val = win0_3.index t (1 : Fin 2) * 256 + 1 * q.val
      rw [e5, e7]
  rw [hb]
  exact congrArg (· + _) (Finset.sum_congr rfl fun k _ => by rw [hx k, hu k])

/-- An index of the result array is in point `t`'s block iff each coordinate is in the block's range on its axis. -/
theorem mem_block (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v12).slice (win0_3.rect t)).set ↔ _
  rw [View.set_slice_whole, Rect.mem_set_unit]
  exact Iff.rfl

/-- Every entry of the result array is written back by some point: row `r` by point `r / 2000`. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 256 ≤ (i 1).val ∧ (i 1).val < win0_3.index t (1 : Fin 2) * 256 + 256
    rw [e7]; omega

/-- The result array after the region: the affine layer of the arrays the region read. -/
theorem array_eq (c : Dev nD) :
    (dat0 V c).arrAt 3 cfg0.N = affine (V c main_arg0) (V c main_arg2) (V c main_v11) :=
  (dat0 V c).arrAt_eq_of_cover 3 _ (fun t _ => flushed_eq V c t) covered

end Cert.KernelIdeal.Region0

end
-- ==== Proof.Region1.lean ====
/-
  Pallas_call 1, as a whole-array fact: whatever the buffers hold when it is entered, its result array ends holding the
  normalised layer of the three arrays it reads.

  The grid has 25 points. Point `t` reads rows `2000 t … 2000 t + 1999` of the aggregated features, the whole weight matrix,
  and rows `2000 t … 2000 t + 1999` of the per-node scale column, and writes back the same rows of the result. Entry
  `(p, q)` of what it writes is the normalised layer at row `2000 t + p`, column `q`: both the feature row and the scale of
  the block's row `p` are those of array row `2000 t + p`. The 25 row blocks tile the 50000 rows — row `r` lies in block
  `r / 2000` — so the array ends as the normalised layer everywhere.
-/
import proofs.«171556_j438086664818_1_alg».proof.Proof.KernelIdealFrameP
import proofs.«171556_j438086664818_1_alg».proof.Proof.Payloads
import proofs.«171556_j438086664818_1_alg».proof.Proof.Layers
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.GenP Cert.DegreeNorm
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window, the scale window and the result window sit at row block `t`,
    column block 0; the weights are always block (0, 0). -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the normalised layer of the arrays as the region finds them. -/
theorem flushed_eq (c : Dev nD) (t : Fin cfg1.N) :
    (dat1 V c).flushed 3 t
      = ((cfg1.win 3).blk t).view.read (Elt Ideal) (scaledRelu (V c main_v23) (V c main_v25) (V c main_v10)) := by
  show (cfg1.win 3).cut (grid1.coords t) ((dat1 V c).after 3 t) = _
  rw [after1_3]
  unfold out1_3
  rw [View.canon_unit_zero origin]
  simp only [View.ld_unit_zero (S := S2000x256) origin, View.ld_unit_zero (S := S256x256) origin,
    View.ld_unit_zero (S := S2000x1) origin]
  obtain ⟨e0, e1, e2, e3, e4, e5, e6, e7⟩ := index_facts t
  show (k1_pay1 (iblk1 V c 0 t) (iblk1 V c 1 t) (iblk1 V c 2 t) : S2000x256.Idx → EReal)
    = fun j : S2000x256.Idx => scaledRelu (V c main_v23) (V c main_v25) (V c main_v10) (((cfg1.win 3).blk t).view.emb j)
  funext j
  obtain ⟨p, q, rfl⟩ : ∃ (p : Fin 2000) (q : Fin 256), j = ix2 p q := ⟨j 0, j 1, eq_ix2 j⟩
  refine (Payloads.scaled_payload1 (iblk1 V c 0 t) (iblk1 V c 1 t) (iblk1 V c 2 t) p q).trans ?_
  unfold scaledRelu
  -- each input block, read at an entry, is its array at the entry the result's block index points to
  have ha : ∀ k : Fin 256, (iblk1 V c 0 t : S2000x256.Idx → EReal) (ix2 p k)
      = V c main_v23 (ix2 (n0 := 50000) (n1 := 256) ((((cfg1.win 3).blk t).view.emb (ix2 p q)) 0) k) := fun k => by
    unfold iblk1
    rw [View.read_apply]
    refine congrArg (V c main_v23) (funext fun a => Fin.ext ?_)
    match a with
    | ⟨0, _⟩ =>
      show win1_0.index t (0 : Fin 2) * 2000 + 1 * p.val = win1_3.index t (0 : Fin 2) * 2000 + 1 * p.val
      rw [e0]
    | ⟨1, _⟩ =>
      show win1_0.index t (1 : Fin 2) * 256 + 1 * k.val = k.val
      rw [e1]; omega
  have hw : ∀ k : Fin 256, (iblk1 V c 1 t : S256x256.Idx → EReal) (ix2 k q)
      = V c main_v25 (ix2 (n0 := 256) (n1 := 256) k ((((cfg1.win 3).blk t).view.emb (ix2 p q)) 1)) := fun k => by
    unfold iblk1
    rw [View.read_apply]
    refine congrArg (V c main_v25) (funext fun a => Fin.ext ?_)
    match a with
    | ⟨0, _⟩ =>
      show win1_1.index t (0 : Fin 2) * 256 + 1 * k.val = k.val
      rw [e2]; omega
    | ⟨1, _⟩ =>
      show win1_1.index t (1 : Fin 2) * 256 + 1 * q.val = win1_3.index t (1 : Fin 2) * 256 + 1 * q.val
      rw [e3, e7]
  have hr : (iblk1 V c 2 t : S2000x1.Idx → EReal) (ix2 p (0 : Fin 1))
      = V c main_v10 (ix2 (n0 := 50000) (n1 := 1) ((((cfg1.win 3).blk t).view.emb (ix2 p q)) 0) 0) := by
    unfold iblk1
    rw [View.read_apply]
    refine congrArg (V c main_v10) (funext fun a => Fin.ext ?_)
    match a with
    | ⟨0, _⟩ =>
      show win1_2.index t (0 : Fin 2) * 2000 + 1 * p.val = win1_3.index t (0 : Fin 2) * 2000 + 1 * p.val
      rw [e4]
    | ⟨1, _⟩ =>
      show win1_2.index t (1 : Fin 2) * 1 + 1 * 0 = 0
      rw [e5]
  rw [hr]
  exact congrArg (fun s => max (s * _) 0) (Finset.sum_congr rfl fun k _ => by rw [ha k, hw k])

/-- An index of the result array is in point `t`'s block iff each coordinate is in the block's range on its axis. -/
theorem mem_block (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v26).slice (win1_3.rect t)).set ↔ _
  rw [View.set_slice_whole, Rect.mem_set_unit]
  exact Iff.rfl

/-- Every entry of the result array is written back by some point: row `r` by point `r / 2000`. -/
theorem covered (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e6, e7⟩ := index_facts t
  refine ⟨t, flush1_3 t, ?_⟩
  rw [mem_block]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 256 ≤ (i 1).val ∧ (i 1).val < win1_3.index t (1 : Fin 2) * 256 + 256
    rw [e7]; omega

/-- The result array after the region: the normalised layer of the arrays the region read. -/
theorem array_eq (c : Dev nD) :
    (dat1 V c).arrAt 3 cfg1.N = scaledRelu (V c main_v23) (V c main_v25) (V c main_v10) :=
  (dat1 V c).arrAt_eq_of_cover 3 _ (fun t _ => flushed_eq V c t) covered

end Cert.KernelIdeal.Region1

end
-- ==== Proof.Region2.lean ====
/-
  Pallas_call 2, as a whole-array fact: whatever the buffers hold when it is entered, its result array ends holding the
  normalised layer of the three arrays it reads.

  The grid has 25 points. Point `t` reads rows `2000 t … 2000 t + 1999` of the aggregated features, the whole weight matrix,
  and rows `2000 t … 2000 t + 1999` of the per-node scale column, and writes back the same rows of the result. Entry
  `(p, q)` of what it writes is the normalised layer at row `2000 t + p`, column `q`: both the feature row and the scale of
  the block's row `p` are those of array row `2000 t + p`. The 25 row blocks tile the 50000 rows — row `r` lies in block
  `r / 2000` — so the array ends as the normalised layer everywhere.
-/
import proofs.«171556_j438086664818_1_alg».proof.Proof.KernelIdealFrameP
import proofs.«171556_j438086664818_1_alg».proof.Proof.Payloads
import proofs.«171556_j438086664818_1_alg».proof.Proof.Layers
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.GenP Cert.DegreeNorm
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window, the scale window and the result window sit at row block `t`,
    column block 0; the weights are always block (0, 0). -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the normalised layer of the arrays as the region finds them. -/
theorem flushed_eq (c : Dev nD) (t : Fin cfg2.N) :
    (dat2 V c).flushed 3 t
      = ((cfg2.win 3).blk t).view.read (Elt Ideal) (scaledRelu (V c main_v36) (V c main_v38) (V c main_v10)) := by
  show (cfg2.win 3).cut (grid2.coords t) ((dat2 V c).after 3 t) = _
  rw [after2_3]
  unfold out2_3
  rw [View.canon_unit_zero origin]
  simp only [View.ld_unit_zero (S := S2000x256) origin, View.ld_unit_zero (S := S256x256) origin,
    View.ld_unit_zero (S := S2000x1) origin]
  obtain ⟨e0, e1, e2, e3, e4, e5, e6, e7⟩ := index_facts t
  show (k2_pay1 (iblk2 V c 0 t) (iblk2 V c 1 t) (iblk2 V c 2 t) : S2000x256.Idx → EReal)
    = fun j : S2000x256.Idx => scaledRelu (V c main_v36) (V c main_v38) (V c main_v10) (((cfg2.win 3).blk t).view.emb j)
  funext j
  obtain ⟨p, q, rfl⟩ : ∃ (p : Fin 2000) (q : Fin 256), j = ix2 p q := ⟨j 0, j 1, eq_ix2 j⟩
  refine (Payloads.scaled_payload2 (iblk2 V c 0 t) (iblk2 V c 1 t) (iblk2 V c 2 t) p q).trans ?_
  unfold scaledRelu
  -- each input block, read at an entry, is its array at the entry the result's block index points to
  have ha : ∀ k : Fin 256, (iblk2 V c 0 t : S2000x256.Idx → EReal) (ix2 p k)
      = V c main_v36 (ix2 (n0 := 50000) (n1 := 256) ((((cfg2.win 3).blk t).view.emb (ix2 p q)) 0) k) := fun k => by
    unfold iblk2
    rw [View.read_apply]
    refine congrArg (V c main_v36) (funext fun a => Fin.ext ?_)
    match a with
    | ⟨0, _⟩ =>
      show win2_0.index t (0 : Fin 2) * 2000 + 1 * p.val = win2_3.index t (0 : Fin 2) * 2000 + 1 * p.val
      rw [e0]
    | ⟨1, _⟩ =>
      show win2_0.index t (1 : Fin 2) * 256 + 1 * k.val = k.val
      rw [e1]; omega
  have hw : ∀ k : Fin 256, (iblk2 V c 1 t : S256x256.Idx → EReal) (ix2 k q)
      = V c main_v38 (ix2 (n0 := 256) (n1 := 256) k ((((cfg2.win 3).blk t).view.emb (ix2 p q)) 1)) := fun k => by
    unfold iblk2
    rw [View.read_apply]
    refine congrArg (V c main_v38) (funext fun a => Fin.ext ?_)
    match a with
    | ⟨0, _⟩ =>
      show win2_1.index t (0 : Fin 2) * 256 + 1 * k.val = k.val
      rw [e2]; omega
    | ⟨1, _⟩ =>
      show win2_1.index t (1 : Fin 2) * 256 + 1 * q.val = win2_3.index t (1 : Fin 2) * 256 + 1 * q.val
      rw [e3, e7]
  have hr : (iblk2 V c 2 t : S2000x1.Idx → EReal) (ix2 p (0 : Fin 1))
      = V c main_v10 (ix2 (n0 := 50000) (n1 := 1) ((((cfg2.win 3).blk t).view.emb (ix2 p q)) 0) 0) := by
    unfold iblk2
    rw [View.read_apply]
    refine congrArg (V c main_v10) (funext fun a => Fin.ext ?_)
    match a with
    | ⟨0, _⟩ =>
      show win2_2.index t (0 : Fin 2) * 2000 + 1 * p.val = win2_3.index t (0 : Fin 2) * 2000 + 1 * p.val
      rw [e4]
    | ⟨1, _⟩ =>
      show win2_2.index t (1 : Fin 2) * 1 + 1 * 0 = 0
      rw [e5]
  rw [hr]
  exact congrArg (fun s => max (s * _) 0) (Finset.sum_congr rfl fun k _ => by rw [ha k, hw k])

/-- An index of the result array is in point `t`'s block iff each coordinate is in the block's range on its axis. -/
theorem mem_block (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v39).slice (win2_3.rect t)).set ↔ _
  rw [View.set_slice_whole, Rect.mem_set_unit]
  exact Iff.rfl

/-- Every entry of the result array is written back by some point: row `r` by point `r / 2000`. -/
theorem covered (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, e6, e7⟩ := index_facts t
  refine ⟨t, flush2_3 t, ?_⟩
  rw [mem_block]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 256 ≤ (i 1).val ∧ (i 1).val < win2_3.index t (1 : Fin 2) * 256 + 256
    rw [e7]; omega

/-- The result array after the region: the normalised layer of the arrays the region read. -/
theorem array_eq (c : Dev nD) :
    (dat2 V c).arrAt 3 cfg2.N = scaledRelu (V c main_v36) (V c main_v38) (V c main_v10) :=
  (dat2 V c).arrAt_eq_of_cover 3 _ (fun t _ => flushed_eq V c t) covered

end Cert.KernelIdeal.Region2

end
-- ==== Proof.Region3.lean ====
/-
  Pallas_call 3, as a whole-array fact: whatever the buffers hold when it is entered, its result array ends holding the
  normalised layer of the three arrays it reads.

  The grid has 25 points. Point `t` reads rows `2000 t … 2000 t + 1999` of the aggregated features, the whole weight matrix,
  and rows `2000 t … 2000 t + 1999` of the per-node scale column, and writes back the same rows of the result. Entry
  `(p, q)` of what it writes is the normalised layer at row `2000 t + p`, column `q`: both the feature row and the scale of
  the block's row `p` are those of array row `2000 t + p`. The 25 row blocks tile the 50000 rows — row `r` lies in block
  `r / 2000` — so the array ends as the normalised layer everywhere.
-/
import proofs.«171556_j438086664818_1_alg».proof.Proof.KernelIdealFrameP
import proofs.«171556_j438086664818_1_alg».proof.Proof.Payloads
import proofs.«171556_j438086664818_1_alg».proof.Proof.Layers
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.GenP Cert.DegreeNorm
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window, the scale window and the result window sit at row block `t`,
    column block 0; the weights are always block (0, 0). -/
theorem index_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the normalised layer of the arrays as the region finds them. -/
theorem flushed_eq (c : Dev nD) (t : Fin cfg3.N) :
    (dat3 V c).flushed 3 t
      = ((cfg3.win 3).blk t).view.read (Elt Ideal) (scaledRelu (V c main_v49) (V c main_v51) (V c main_v10)) := by
  show (cfg3.win 3).cut (grid3.coords t) ((dat3 V c).after 3 t) = _
  rw [after3_3]
  unfold out3_3
  rw [View.canon_unit_zero origin]
  simp only [View.ld_unit_zero (S := S2000x256) origin, View.ld_unit_zero (S := S256x256) origin,
    View.ld_unit_zero (S := S2000x1) origin]
  obtain ⟨e0, e1, e2, e3, e4, e5, e6, e7⟩ := index_facts t
  show (k3_pay1 (iblk3 V c 0 t) (iblk3 V c 1 t) (iblk3 V c 2 t) : S2000x256.Idx → EReal)
    = fun j : S2000x256.Idx => scaledRelu (V c main_v49) (V c main_v51) (V c main_v10) (((cfg3.win 3).blk t).view.emb j)
  funext j
  obtain ⟨p, q, rfl⟩ : ∃ (p : Fin 2000) (q : Fin 256), j = ix2 p q := ⟨j 0, j 1, eq_ix2 j⟩
  refine (Payloads.scaled_payload3 (iblk3 V c 0 t) (iblk3 V c 1 t) (iblk3 V c 2 t) p q).trans ?_
  unfold scaledRelu
  -- each input block, read at an entry, is its array at the entry the result's block index points to
  have ha : ∀ k : Fin 256, (iblk3 V c 0 t : S2000x256.Idx → EReal) (ix2 p k)
      = V c main_v49 (ix2 (n0 := 50000) (n1 := 256) ((((cfg3.win 3).blk t).view.emb (ix2 p q)) 0) k) := fun k => by
    unfold iblk3
    rw [View.read_apply]
    refine congrArg (V c main_v49) (funext fun a => Fin.ext ?_)
    match a with
    | ⟨0, _⟩ =>
      show win3_0.index t (0 : Fin 2) * 2000 + 1 * p.val = win3_3.index t (0 : Fin 2) * 2000 + 1 * p.val
      rw [e0]
    | ⟨1, _⟩ =>
      show win3_0.index t (1 : Fin 2) * 256 + 1 * k.val = k.val
      rw [e1]; omega
  have hw : ∀ k : Fin 256, (iblk3 V c 1 t : S256x256.Idx → EReal) (ix2 k q)
      = V c main_v51 (ix2 (n0 := 256) (n1 := 256) k ((((cfg3.win 3).blk t).view.emb (ix2 p q)) 1)) := fun k => by
    unfold iblk3
    rw [View.read_apply]
    refine congrArg (V c main_v51) (funext fun a => Fin.ext ?_)
    match a with
    | ⟨0, _⟩ =>
      show win3_1.index t (0 : Fin 2) * 256 + 1 * k.val = k.val
      rw [e2]; omega
    | ⟨1, _⟩ =>
      show win3_1.index t (1 : Fin 2) * 256 + 1 * q.val = win3_3.index t (1 : Fin 2) * 256 + 1 * q.val
      rw [e3, e7]
  have hr : (iblk3 V c 2 t : S2000x1.Idx → EReal) (ix2 p (0 : Fin 1))
      = V c main_v10 (ix2 (n0 := 50000) (n1 := 1) ((((cfg3.win 3).blk t).view.emb (ix2 p q)) 0) 0) := by
    unfold iblk3
    rw [View.read_apply]
    refine congrArg (V c main_v10) (funext fun a => Fin.ext ?_)
    match a with
    | ⟨0, _⟩ =>
      show win3_2.index t (0 : Fin 2) * 2000 + 1 * p.val = win3_3.index t (0 : Fin 2) * 2000 + 1 * p.val
      rw [e4]
    | ⟨1, _⟩ =>
      show win3_2.index t (1 : Fin 2) * 1 + 1 * 0 = 0
      rw [e5]
  rw [hr]
  exact congrArg (fun s => max (s * _) 0) (Finset.sum_congr rfl fun k _ => by rw [ha k, hw k])

/-- An index of the result array is in point `t`'s block iff each coordinate is in the block's range on its axis. -/
theorem mem_block (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v52).slice (win3_3.rect t)).set ↔ _
  rw [View.set_slice_whole, Rect.mem_set_unit]
  exact Iff.rfl

/-- Every entry of the result array is written back by some point: row `r` by point `r / 2000`. -/
theorem covered (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, e6, e7⟩ := index_facts t
  refine ⟨t, flush3_3 t, ?_⟩
  rw [mem_block]
  intro a
  match a with
  | ⟨0, _⟩ =>
    show win3_3.index t (0 : Fin 2) * 2000 ≤ (i 0).val ∧ (i 0).val < win3_3.index t (0 : Fin 2) * 2000 + 2000
    rw [e6, ht]; omega
  | ⟨1, _⟩ =>
    show win3_3.index t (1 : Fin 2) * 256 ≤ (i 1).val ∧ (i 1).val < win3_3.index t (1 : Fin 2) * 256 + 256
    rw [e7]; omega

/-- The result array after the region: the normalised layer of the arrays the region read. -/
theorem array_eq (c : Dev nD) :
    (dat3 V c).arrAt 3 cfg3.N = scaledRelu (V c main_v49) (V c main_v51) (V c main_v10) :=
  (dat3 V c).arrAt_eq_of_cover 3 _ (fun t _ => flushed_eq V c t) covered

end Cert.KernelIdeal.Region3

end
-- ==== Proof.Fold.lean ====
/-
  The kernel program's result, read back through its eight segments to the five arguments.

  Name the pieces once. From the edge list `E`: its row of `sources` and its row of `targets`; the in-`degree` of every node,
  a scatter-add of ones at the targets; its `reciprocal`, one over the degree, kept as a column. From the parameters: the
  bias as a row, and the three weight matrices each transposed (`weight0/1/2`). And the neighbourhood sum
  `aggregate E h`: gather the rows of `h` at the (wrapped) sources and scatter-add them at the targets. The gather and the
  scatter-add are never opened here: both programs apply the very same operations, so they travel as one function.

  Then the hidden states are
      hidden0 = affine x U0 bias,      hidden(l+1) = scaledRelu (aggregate E hidden(l)) weight(l) (reciprocal E),
  and the program's result buffer ends holding `hidden3`. The proof walks the segments in order. After a stretch of host
  operations a buffer holds what the operations compute from the buffers before the stretch; after a pallas_call its result
  array holds the layer of the arrays it read (the region modules), an array it only read is unchanged, and a buffer it
  does not touch is as it was. Each lemma below is one buffer at one boundary.
-/
import proofs.«171556_j438086664818_1_alg».proof.Proof.KernelIdealFrameP
import proofs.«171556_j438086664818_1_alg».proof.Proof.Region0
import proofs.«171556_j438086664818_1_alg».proof.Proof.Region1
import proofs.«171556_j438086664818_1_alg».proof.Proof.Region2
import proofs.«171556_j438086664818_1_alg».proof.Proof.Region3
import proofs.«171556_j438086664818_1_alg».proof.Proof.Layers
import Idealize.ShloMosaic.PureOps.Ideal
import Idealize.ShloMosaic.Lib.StableHlo.Run

set_option maxRecDepth 16384
-- reading a buffer back through a stretch of sixteen host operations rewrites once per operation and reference
set_option maxHeartbeats 1600000

noncomputable section

namespace Cert.KernelIdeal.Fold

open Cert.KernelIdeal Cert.KernelIdeal.Gen Cert.KernelIdeal.GenP Cert.DegreeNorm
open Idealize.ShloMosaic Idealize.ShloMosaic.TcCoe Idealize.SL.Sem Idealize.ShloMosaic.StableHlo
open Idealize.ShloMosaic.Pipeline (Dat Cfg Window)

/-! ## The pieces, named -/

/-- The edge list's first row: every edge's source node. -/
def sources (E : (⟨S2x800000, .i32⟩ : BufTy).Contents (Elt Ideal)) : (⟨S800000, .i32⟩ : BufTy).Contents (Elt Ideal) :=
  shapeCast _ (extractStridedSlice S1x800000 ![0, 0] E slices_S2x800000_S1x800000_0_0) shapeCasts_S1x800000_S800000
/-- The edge list's second row: every edge's target node. -/
def targets (E : (⟨S2x800000, .i32⟩ : BufTy).Contents (Elt Ideal)) : (⟨S800000, .i32⟩ : BufTy).Contents (Elt Ideal) :=
  shapeCast _ (extractStridedSlice S1x800000 ![1, 0] E slices_S2x800000_S1x800000_1_0) shapeCasts_S1x800000_S800000
/-- Every node's in-degree: ones scatter-added at the targets, onto zeros. -/
def degree (E : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (targets E))
    (broadcastInDim S800000 ![] bcast_S_S800000 (constant (F := Ideal) S_ .f32 0x3F800000#32))
/-- One over the in-degree, as a column. -/
def reciprocal (E : (⟨S2x800000, .i32⟩ : BufTy).Contents (Elt Ideal)) : (⟨S50000x1, .f32⟩ : BufTy).Contents (Elt Ideal) :=
  shapeCast _ (Host.divf (F := Ideal) (broadcastInDim S50000 ![] bcast_S_S50000 (constant (F := Ideal) S_ .f32 0x3F800000#32)) (degree E)) shapeCasts_S50000_S50000x1
/-- The bias as one row. -/
def biasRow (B : (⟨S256, .f32⟩ : BufTy).Contents (Elt Ideal)) : (⟨S1x256, .f32⟩ : BufTy).Contents (Elt Ideal) := shapeCast _ B shapeCasts_S256_S1x256
/-- The three weight matrices, each transposed. -/
def weightsT (Us : (⟨S3x256x256, .f32⟩ : BufTy).Contents (Elt Ideal)) : (⟨S3x256x256, .f32⟩ : BufTy).Contents (Elt Ideal) :=
  transpose S3x256x256 [0, 2, 1] Us transposes_S3x256x256_S3x256x256_0_2_1
def weight0 (Us : (⟨S3x256x256, .f32⟩ : BufTy).Contents (Elt Ideal)) : (⟨S256x256, .f32⟩ : BufTy).Contents (Elt Ideal) :=
  shapeCast _ (extractStridedSlice S1x256x256 ![0, 0, 0] (weightsT Us) slices_S3x256x256_S1x256x256_0_0_0) shapeCasts_S1x256x256_S256x256
def weight1 (Us : (⟨S3x256x256, .f32⟩ : BufTy).Contents (Elt Ideal)) : (⟨S256x256, .f32⟩ : BufTy).Contents (Elt Ideal) :=
  shapeCast _ (extractStridedSlice S1x256x256 ![1, 0, 0] (weightsT Us) slices_S3x256x256_S1x256x256_1_0_0) shapeCasts_S1x256x256_S256x256
def weight2 (Us : (⟨S3x256x256, .f32⟩ : BufTy).Contents (Elt Ideal)) : (⟨S256x256, .f32⟩ : BufTy).Contents (Elt Ideal) :=
  shapeCast _ (extractStridedSlice S1x256x256 ![2, 0, 0] (weightsT Us) slices_S3x256x256_S1x256x256_2_0_0) shapeCasts_S1x256x256_S256x256
/-- The neighbourhood sum: rows of `h` gathered at the sources (a negative index wrapped by the node count) and scatter-added
    at the targets, onto zeros. -/
def aggregate (E : (⟨S2x800000, .i32⟩ : BufTy).Contents (Elt Ideal)) (h : (⟨S50000x256, .f32⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 (targets E))
    (Host.gather gather_S50000x256_S800000x1_S800000x256_1_0_n_n_0_1_1256 h
      (broadcastInDim S800000x1 ![0] bcast_S800000_S800000x1_0
        (select
          (cmpi CmpIPredicate.slt (sources E) (broadcastInDim S800000 ![] bcast_S_S800000 (constantI S_ 32 0#32)))
          (addi (sources E) (broadcastInDim S800000 ![] bcast_S_S800000 (constantI S_ 32 50000#32)))
          (sources E))))

/-- The hidden states. -/
def hidden0 (X : (⟨S50000x256, .f32⟩ : BufTy).Contents (Elt Ideal)) (U0 : (⟨S256x256, .f32⟩ : BufTy).Contents (Elt Ideal)) (B : (⟨S256, .f32⟩ : BufTy).Contents (Elt Ideal)) : (⟨S50000x256, .f32⟩ : BufTy).Contents (Elt Ideal) :=
  affine X U0 (biasRow B)
def hidden1 (X : (⟨S50000x256, .f32⟩ : BufTy).Contents (Elt Ideal)) (E : (⟨S2x800000, .i32⟩ : BufTy).Contents (Elt Ideal)) (U0 : (⟨S256x256, .f32⟩ : BufTy).Contents (Elt Ideal)) (B : (⟨S256, .f32⟩ : BufTy).Contents (Elt Ideal)) (Us : (⟨S3x256x256, .f32⟩ : BufTy).Contents (Elt Ideal)) : (⟨S50000x256, .f32⟩ : BufTy).Contents (Elt Ideal) :=
  scaledRelu (aggregate E (hidden0 X U0 B)) (weight0 Us) (reciprocal E)
def hidden2 (X : (⟨S50000x256, .f32⟩ : BufTy).Contents (Elt Ideal)) (E : (⟨S2x800000, .i32⟩ : BufTy).Contents (Elt Ideal)) (U0 : (⟨S256x256, .f32⟩ : BufTy).Contents (Elt Ideal)) (B : (⟨S256, .f32⟩ : BufTy).Contents (Elt Ideal)) (Us : (⟨S3x256x256, .f32⟩ : BufTy).Contents (Elt Ideal)) : (⟨S50000x256, .f32⟩ : BufTy).Contents (Elt Ideal) :=
  scaledRelu (aggregate E (hidden1 X E U0 B Us)) (weight1 Us) (reciprocal E)
def hidden3 (X : (⟨S50000x256, .f32⟩ : BufTy).Contents (Elt Ideal)) (E : (⟨S2x800000, .i32⟩ : BufTy).Contents (Elt Ideal)) (U0 : (⟨S256x256, .f32⟩ : BufTy).Contents (Elt Ideal)) (B : (⟨S256, .f32⟩ : BufTy).Contents (Elt Ideal)) (Us : (⟨S3x256x256, .f32⟩ : BufTy).Contents (Elt Ideal)) : (⟨S50000x256, .f32⟩ : BufTy).Contents (Elt Ideal) :=
  scaledRelu (aggregate E (hidden2 X E U0 B Us)) (weight2 Us) (reciprocal E)

variable (m : (ℓ : Loc nD τ sig) → Buf (Elt Ideal) ℓ) (ρ : Dev nD → PrngReg) (c : Dev nD)

/-! ## After the first host stretch -/

theorem W1_arg0 : W1 m ρ c (Proc.devRef .tc main_arg0) = (m ((c : Thread nD τ).loc main_arg0)) := by
  show StableHlo.after hostOps0 (W0 m ρ c) (Proc.devRef .tc main_arg0) = _
  after_results
  all_goals (rfl)

theorem W1_arg2 : W1 m ρ c (Proc.devRef .tc main_arg2) = (m ((c : Thread nD τ).loc main_arg2)) := by
  show StableHlo.after hostOps0 (W0 m ρ c) (Proc.devRef .tc main_arg2) = _
  after_results
  all_goals (rfl)

theorem W1_arg4 : W1 m ρ c (Proc.devRef .tc main_arg4) = (m ((c : Thread nD τ).loc main_arg4)) := by
  show StableHlo.after hostOps0 (W0 m ρ c) (Proc.devRef .tc main_arg4) = _
  after_results
  all_goals (rfl)

theorem W1_v1 : W1 m ρ c (Proc.devRef .tc main_v1) = sources (m ((c : Thread nD τ).loc main_arg1)) := by
  show StableHlo.after hostOps0 (W0 m ρ c) (Proc.devRef .tc main_v1) = _
  after_results
  all_goals (unfold sources; rfl)

theorem W1_v3 : W1 m ρ c (Proc.devRef .tc main_v3) = targets (m ((c : Thread nD τ).loc main_arg1)) := by
  show StableHlo.after hostOps0 (W0 m ρ c) (Proc.devRef .tc main_v3) = _
  after_results
  all_goals (unfold targets; rfl)

theorem W1_v10 : W1 m ρ c (Proc.devRef .tc main_v10) = reciprocal (m ((c : Thread nD τ).loc main_arg1)) := by
  show StableHlo.after hostOps0 (W0 m ρ c) (Proc.devRef .tc main_v10) = _
  after_results
  all_goals (unfold reciprocal degree targets; rfl)

theorem W1_v11 : W1 m ρ c (Proc.devRef .tc main_v11) = biasRow (m ((c : Thread nD τ).loc main_arg3)) := by
  show StableHlo.after hostOps0 (W0 m ρ c) (Proc.devRef .tc main_v11) = _
  after_results
  all_goals (unfold biasRow; rfl)

/-! ## After pallas_call 0 -/

theorem W2_v12 : W2 m ρ c (Proc.devRef .tc main_v12) = hidden0 (m ((c : Thread nD τ).loc main_arg0)) (m ((c : Thread nD τ).loc main_arg2)) (m ((c : Thread nD τ).loc main_arg3)) :=
  (W2_arr m ρ c 3).trans ((Region0.array_eq (V1 m ρ) c).trans (by
    show affine (W1 m ρ c (Proc.devRef .tc main_arg0)) (W1 m ρ c (Proc.devRef .tc main_arg2)) (W1 m ρ c (Proc.devRef .tc main_v11)) = _
    rw [W1_arg0 m ρ c, W1_arg2 m ρ c, W1_v11 m ρ c]
    rfl))
theorem W2_v1 : W2 m ρ c (Proc.devRef .tc main_v1) = sources (m ((c : Thread nD τ).loc main_arg1)) :=
  (W2_of_ne m ρ c main_v1 (by decide)).trans (W1_v1 m ρ c)

theorem W2_v3 : W2 m ρ c (Proc.devRef .tc main_v3) = targets (m ((c : Thread nD τ).loc main_arg1)) :=
  (W2_of_ne m ρ c main_v3 (by decide)).trans (W1_v3 m ρ c)

theorem W2_v10 : W2 m ρ c (Proc.devRef .tc main_v10) = reciprocal (m ((c : Thread nD τ).loc main_arg1)) :=
  (W2_of_ne m ρ c main_v10 (by decide)).trans (W1_v10 m ρ c)

theorem W2_arg4 : W2 m ρ c (Proc.devRef .tc main_arg4) = (m ((c : Thread nD τ).loc main_arg4)) :=
  (W2_of_ne m ρ c main_arg4 (by decide)).trans (W1_arg4 m ρ c)

/-! ## After the second host stretch -/

theorem W3_v23 : W3 m ρ c (Proc.devRef .tc main_v23) = aggregate (m ((c : Thread nD τ).loc main_arg1)) (hidden0 (m ((c : Thread nD τ).loc main_arg0)) (m ((c : Thread nD τ).loc main_arg2)) (m ((c : Thread nD τ).loc main_arg3))) := by
  show StableHlo.after hostOps1 (W2 m ρ c) (Proc.devRef .tc main_v23) = _
  after_results
  rw [W2_v3 m ρ c, W2_v12 m ρ c, W2_v1 m ρ c]
  all_goals (unfold aggregate; rfl)

theorem W3_v25 : W3 m ρ c (Proc.devRef .tc main_v25) = weight0 (m ((c : Thread nD τ).loc main_arg4)) := by
  show StableHlo.after hostOps1 (W2 m ρ c) (Proc.devRef .tc main_v25) = _
  after_results
  rw [W2_arg4 m ρ c]
  all_goals (unfold weight0 weightsT; rfl)

theorem W3_v13 : W3 m ρ c (Proc.devRef .tc main_v13) = weightsT (m ((c : Thread nD τ).loc main_arg4)) := by
  show StableHlo.after hostOps1 (W2 m ρ c) (Proc.devRef .tc main_v13) = _
  after_results
  rw [W2_arg4 m ρ c]
  all_goals (unfold weightsT; rfl)

theorem W3_v10 : W3 m ρ c (Proc.devRef .tc main_v10) = reciprocal (m ((c : Thread nD τ).loc main_arg1)) := by
  show StableHlo.after hostOps1 (W2 m ρ c) (Proc.devRef .tc main_v10) = _
  after_results
  rw [W2_v10 m ρ c]
  all_goals (rfl)

theorem W3_v1 : W3 m ρ c (Proc.devRef .tc main_v1) = sources (m ((c : Thread nD τ).loc main_arg1)) := by
  show StableHlo.after hostOps1 (W2 m ρ c) (Proc.devRef .tc main_v1) = _
  after_results
  rw [W2_v1 m ρ c]
  all_goals (rfl)

theorem W3_v3 : W3 m ρ c (Proc.devRef .tc main_v3) = targets (m ((c : Thread nD τ).loc main_arg1)) := by
  show StableHlo.after hostOps1 (W2 m ρ c) (Proc.devRef .tc main_v3) = _
  after_results
  rw [W2_v3 m ρ c]
  all_goals (rfl)

/-! ## After pallas_call 1 -/

theorem W4_v26 : W4 m ρ c (Proc.devRef .tc main_v26) = hidden1 (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 3).trans ((Region1.array_eq (V3 m ρ) c).trans (by
    show scaledRelu (W3 m ρ c (Proc.devRef .tc main_v23)) (W3 m ρ c (Proc.devRef .tc main_v25)) (W3 m ρ c (Proc.devRef .tc main_v10)) = _
    rw [W3_v23 m ρ c, W3_v25 m ρ c, W3_v10 m ρ c]
    rfl))
theorem W4_v10 : W4 m ρ c (Proc.devRef .tc main_v10) = reciprocal (m ((c : Thread nD τ).loc main_arg1)) :=
  ((W4_arr m ρ c 2).trans (((dat1 (V3 m ρ) c).arrAt_in 2 rfl _).trans (A_eq1 (V3 m ρ) c 2))).trans (W3_v10 m ρ c)

theorem W4_v1 : W4 m ρ c (Proc.devRef .tc main_v1) = sources (m ((c : Thread nD τ).loc main_arg1)) :=
  (W4_of_ne m ρ c main_v1 (by decide)).trans (W3_v1 m ρ c)

theorem W4_v3 : W4 m ρ c (Proc.devRef .tc main_v3) = targets (m ((c : Thread nD τ).loc main_arg1)) :=
  (W4_of_ne m ρ c main_v3 (by decide)).trans (W3_v3 m ρ c)

theorem W4_v13 : W4 m ρ c (Proc.devRef .tc main_v13) = weightsT (m ((c : Thread nD τ).loc main_arg4)) :=
  (W4_of_ne m ρ c main_v13 (by decide)).trans (W3_v13 m ρ c)

/-! ## After the third host stretch -/

theorem W5_v36 : W5 m ρ c (Proc.devRef .tc main_v36) = aggregate (m ((c : Thread nD τ).loc main_arg1)) (hidden1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) (Proc.devRef .tc main_v36) = _
  after_results
  rw [W4_v3 m ρ c, W4_v26 m ρ c, W4_v1 m ρ c]
  all_goals (unfold aggregate; rfl)

theorem W5_v38 : W5 m ρ c (Proc.devRef .tc main_v38) = weight1 (m ((c : Thread nD τ).loc main_arg4)) := by
  show StableHlo.after hostOps2 (W4 m ρ c) (Proc.devRef .tc main_v38) = _
  after_results
  rw [W4_v13 m ρ c]
  all_goals (unfold weight1; rfl)

theorem W5_v13 : W5 m ρ c (Proc.devRef .tc main_v13) = weightsT (m ((c : Thread nD τ).loc main_arg4)) := by
  show StableHlo.after hostOps2 (W4 m ρ c) (Proc.devRef .tc main_v13) = _
  after_results
  rw [W4_v13 m ρ c]
  all_goals (rfl)

theorem W5_v10 : W5 m ρ c (Proc.devRef .tc main_v10) = reciprocal (m ((c : Thread nD τ).loc main_arg1)) := by
  show StableHlo.after hostOps2 (W4 m ρ c) (Proc.devRef .tc main_v10) = _
  after_results
  rw [W4_v10 m ρ c]
  all_goals (rfl)

theorem W5_v1 : W5 m ρ c (Proc.devRef .tc main_v1) = sources (m ((c : Thread nD τ).loc main_arg1)) := by
  show StableHlo.after hostOps2 (W4 m ρ c) (Proc.devRef .tc main_v1) = _
  after_results
  rw [W4_v1 m ρ c]
  all_goals (rfl)

theorem W5_v3 : W5 m ρ c (Proc.devRef .tc main_v3) = targets (m ((c : Thread nD τ).loc main_arg1)) := by
  show StableHlo.after hostOps2 (W4 m ρ c) (Proc.devRef .tc main_v3) = _
  after_results
  rw [W4_v3 m ρ c]
  all_goals (rfl)

/-! ## After pallas_call 2 -/

theorem W6_v39 : W6 m ρ c (Proc.devRef .tc main_v39) = hidden2 (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Region2.array_eq (V5 m ρ) c).trans (by
    show scaledRelu (W5 m ρ c (Proc.devRef .tc main_v36)) (W5 m ρ c (Proc.devRef .tc main_v38)) (W5 m ρ c (Proc.devRef .tc main_v10)) = _
    rw [W5_v36 m ρ c, W5_v38 m ρ c, W5_v10 m ρ c]
    rfl))
theorem W6_v10 : W6 m ρ c (Proc.devRef .tc main_v10) = reciprocal (m ((c : Thread nD τ).loc main_arg1)) :=
  ((W6_arr m ρ c 2).trans (((dat2 (V5 m ρ) c).arrAt_in 2 rfl _).trans (A_eq2 (V5 m ρ) c 2))).trans (W5_v10 m ρ c)

theorem W6_v1 : W6 m ρ c (Proc.devRef .tc main_v1) = sources (m ((c : Thread nD τ).loc main_arg1)) :=
  (W6_of_ne m ρ c main_v1 (by decide)).trans (W5_v1 m ρ c)

theorem W6_v3 : W6 m ρ c (Proc.devRef .tc main_v3) = targets (m ((c : Thread nD τ).loc main_arg1)) :=
  (W6_of_ne m ρ c main_v3 (by decide)).trans (W5_v3 m ρ c)

theorem W6_v13 : W6 m ρ c (Proc.devRef .tc main_v13) = weightsT (m ((c : Thread nD τ).loc main_arg4)) :=
  (W6_of_ne m ρ c main_v13 (by decide)).trans (W5_v13 m ρ c)

/-! ## After the fourth host stretch -/

theorem W7_v49 : W7 m ρ c (Proc.devRef .tc main_v49) = aggregate (m ((c : Thread nD τ).loc main_arg1)) (hidden2 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps3 (W6 m ρ c) (Proc.devRef .tc main_v49) = _
  after_results
  rw [W6_v3 m ρ c, W6_v39 m ρ c, W6_v1 m ρ c]
  all_goals (unfold aggregate; rfl)

theorem W7_v51 : W7 m ρ c (Proc.devRef .tc main_v51) = weight2 (m ((c : Thread nD τ).loc main_arg4)) := by
  show StableHlo.after hostOps3 (W6 m ρ c) (Proc.devRef .tc main_v51) = _
  after_results
  rw [W6_v13 m ρ c]
  all_goals (unfold weight2; rfl)

theorem W7_v10 : W7 m ρ c (Proc.devRef .tc main_v10) = reciprocal (m ((c : Thread nD τ).loc main_arg1)) := by
  show StableHlo.after hostOps3 (W6 m ρ c) (Proc.devRef .tc main_v10) = _
  after_results
  rw [W6_v10 m ρ c]
  all_goals (rfl)

/-! ## After pallas_call 3: the result -/

/-- The result buffer ends holding the third hidden state of the launch contents of the five arguments. -/
theorem result_eq : W8 m ρ c (Proc.devRef .tc main_v52) = hidden3 (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 3).trans ((Region3.array_eq (V7 m ρ) c).trans (by
    show scaledRelu (W7 m ρ c (Proc.devRef .tc main_v49)) (W7 m ρ c (Proc.devRef .tc main_v51)) (W7 m ρ c (Proc.devRef .tc main_v10)) = _
    rw [W7_v49 m ρ c, W7_v51 m ρ c, W7_v10 m ρ c]
    rfl))

end Cert.KernelIdeal.Fold

end
-- ==== Proof.LayoutReads.lean ====
/-
  Three small reads of re-laid arrays, with no program in sight.

  One matrix out of a stack: slicing `[3, 256, 256]` at `l` on the leading axis and dropping the unit axis gives the
  matrix whose entry `(a, b)` is the stack's entry `(l, a, b)`. A vector as a column: `[n]` cast to `[n, 1]` reads, at
  `(p, 0)`, the vector at `p`. A scalar broadcast to a vector reads, anywhere, the scalar.
-/
import Idealize.ShloMosaic.Lib.ValueIdx
import Idealize.ShloMosaic.Lib.ValueLayout
import Idealize.ShloMosaic.Lib.Pipeline.Value

noncomputable section

namespace Cert.DegreeNorm

open Idealize.ShloMosaic Idealize.ShloMosaic.ValueIdx Idealize.ShloMosaic.Pipeline

variable {α : Type}

/-- The `l`-th matrix of a stack of three, read at `(a, b)`, is the stack at `(l, a, b)`. -/
theorem stack_slice_apply (l : Fin 3) (Us : (⟨3, ![3, 256, 256]⟩ : Shape).Idx → α)
    (hs : (⟨3, ![3, 256, 256]⟩ : Shape).Slices ![l.val, 0, 0] ⟨3, ![1, 256, 256]⟩)
    (hc : (⟨3, ![1, 256, 256]⟩ : Shape).ShapeCasts ⟨2, ![256, 256]⟩) (a b : Fin 256) :
    shapeCast ⟨2, ![256, 256]⟩ (extractStridedSlice ⟨3, ![1, 256, 256]⟩ ![l.val, 0, 0] Us hs) hc (ix2 a b)
      = Us (ix3 l a b) := by
  refine (shapeCast_1ab_ab_apply _ hc a b).trans ?_
  exact extractStridedSlice_apply ![l.val, 0, 0] Us hs (ix3 (0 : Fin 1) a b) (ix3 l a b) (fun ax =>
    match ax with
    | ⟨0, _⟩ => by show l.val = l.val + 0; omega
    | ⟨1, _⟩ => by show a.val = 0 + a.val; omega
    | ⟨2, _⟩ => by show b.val = 0 + b.val; omega)

/-- A vector cast to a column reads, at `(p, 0)`, the vector at `p`. -/
theorem column_apply {n : ℕ} (x : (⟨1, ![n]⟩ : Shape).Idx → α) (h : (⟨1, ![n]⟩ : Shape).ShapeCasts ⟨2, ![n, 1]⟩) (p : Fin n) :
    shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a vector reads, at any index, the scalar. -/
theorem scalar_broadcast_apply {n : ℕ} (x : (⟨0, ![]⟩ : Shape).Idx → α)
    (h : (⟨0, ![]⟩ : Shape).BroadcastsInDim ⟨1, ![n]⟩ ![]) (p : Fin n) :
    broadcastInDim ⟨1, ![n]⟩ ![] h x (ix1 p) = x ix0 :=
  broadcastInDim_apply ![] h x (ix1 p) ix0 (fun a => a.elim0)

end Cert.DegreeNorm

end
-- ==== Proof.Pieces.lean ====
/-
  The kernel program's named pieces, read at an index.

  The transposed weights: `weight(l)` is the `l`-th matrix of the stack after each matrix was transposed, so its entry
  `(k, q)` is the stack's entry `(l, q, k)`. The bias row at `(0, q)` is the bias at `q`. The reciprocal column at
  `(p, 0)` is one over the degree of node `p`, the quotient being the extended reals' own: the pattern of `1.0` denotes `1`.
-/
import proofs.«171556_j438086664818_1_alg».proof.Proof.Fold
import proofs.«171556_j438086664818_1_alg».proof.Proof.LayoutReads
import proofs.«171556_j438086664818_1_alg».proof.Proof.QuotientLaw

noncomputable section

namespace Cert.KernelIdeal.Fold

open Cert.KernelIdeal Cert.KernelIdeal.Gen Cert.DegreeNorm
open Idealize.ShloMosaic Idealize.ShloMosaic.ValueIdx Idealize.ShloMosaic.Pipeline

theorem weight0_apply (Us : (⟨S3x256x256, .f32⟩ : BufTy).Contents (Elt Ideal)) (k q : Fin 256) :
    weight0 Us (ix2 k q) = Us (ix3 (0 : Fin 3) q k) := by
  unfold weight0
  refine (stack_slice_apply (0 : Fin 3) (weightsT Us) slices_S3x256x256_S1x256x256_0_0_0 shapeCasts_S1x256x256_S256x256 k q).trans ?_
  unfold weightsT
  exact transpose_ix3_021_apply Us transposes_S3x256x256_S3x256x256_0_2_1 (0 : Fin 3) k q

theorem weight1_apply (Us : (⟨S3x256x256, .f32⟩ : BufTy).Contents (Elt Ideal)) (k q : Fin 256) :
    weight1 Us (ix2 k q) = Us (ix3 (1 : Fin 3) q k) := by
  unfold weight1
  refine (stack_slice_apply (1 : Fin 3) (weightsT Us) slices_S3x256x256_S1x256x256_1_0_0 shapeCasts_S1x256x256_S256x256 k q).trans ?_
  unfold weightsT
  exact transpose_ix3_021_apply Us transposes_S3x256x256_S3x256x256_0_2_1 (1 : Fin 3) k q

theorem weight2_apply (Us : (⟨S3x256x256, .f32⟩ : BufTy).Contents (Elt Ideal)) (k q : Fin 256) :
    weight2 Us (ix2 k q) = Us (ix3 (2 : Fin 3) q k) := by
  unfold weight2
  refine (stack_slice_apply (2 : Fin 3) (weightsT Us) slices_S3x256x256_S1x256x256_2_0_0 shapeCasts_S1x256x256_S256x256 k q).trans ?_
  unfold weightsT
  exact transpose_ix3_021_apply Us transposes_S3x256x256_S3x256x256_0_2_1 (2 : Fin 3) k q

theorem biasRow_apply (B : (⟨S256, .f32⟩ : BufTy).Contents (Elt Ideal)) (q : Fin 256) : biasRow B (ix2 (0 : Fin 1) q) = B (ix1 q) := by
  unfold biasRow
  exact shapeCast_a_1a_apply B shapeCasts_S256_S1x256 (0 : Fin 1) q

/-- The host's quotient of two arrays, read at an index, is the quotient of the entries. -/
theorem hostDivf_apply {s : Shape} (a b : FVec Ideal s .f32) (i : s.Idx) :
    Host.divf (F := Ideal) a b i = Ideal.div (a i) (b i) := rfl

theorem reciprocal_apply (E : (⟨S2x800000, .i32⟩ : BufTy).Contents (Elt Ideal)) (p : Fin 50000) :
    reciprocal E (ix2 p (0 : Fin 1)) = Ideal.div 1 (degree E (ix1 p)) := by
  unfold reciprocal
  refine (column_apply _ shapeCasts_S50000_S50000x1 p).trans ?_
  refine (hostDivf_apply _ _ (ix1 p)).trans ?_
  rw [scalar_broadcast_apply _ bcast_S_S50000 p, constant_apply, ofBits_one]

end Cert.KernelIdeal.Fold

end
-- ==== Proof.Bridge.lean ====
/-
  The reference computes the kernel's hidden states.

  Stage by stage of the reference program: its first layer `x · U0 + bias` is `hidden0` (the same inner products; the bias
  broadcast down the rows is the bias row read at its column). Each later layer gathers and scatter-adds the previous state
  with the very operations the kernel program uses — so, given equal previous states, the aggregates are equal without
  opening the gather or the scatter —, takes inner products against the `l`-th weight matrix transposed (sliced first and
  transposed after, where the kernel transposes the whole stack first and slices after: entry `(k, q)` is `Us (l, q, k)`
  either way), divides row `p` by the degree of node `p` and clamps at zero. The kernel multiplies by the reciprocal of the
  degree instead; clamped at zero the two agree for every degree, zero included (`scaledRelu_reciprocal`). Three layers
  chain to: the reference's result is `hidden3`.
-/
import proofs.«171556_j438086664818_1_alg».proof.Proof.Pieces
import proofs.«171556_j438086664818_1_alg».proof.Proof.Gen.ReferenceIdeal.Read
import Idealize.ShloMosaic.Lib.ValueLayout

noncomputable section

namespace Cert.Bridge

open Cert.ReferenceIdeal Cert.ReferenceIdeal.Gen Cert.ReferenceIdeal.Read Cert.KernelIdeal.Fold Cert.DegreeNorm
open Idealize.ShloMosaic Idealize.ShloMosaic.ValueIdx Idealize.ShloMosaic.Pipeline

theorem ref_weight0 (Us : (⟨S3x256x256, .f32⟩ : BufTy).Contents (Elt Ideal)) (k q : Fin 256) :
    val_main_v24 (F := Ideal) Us (ix2 k q) = weight0 Us (ix2 k q) := by
  rw [weight0_apply]
  unfold val_main_v24 val_main_v23 val_main_v22
  refine (transpose_ix2_apply _ transposes_S256x256_S256x256_1_0 k q).trans ?_
  exact stack_slice_apply (0 : Fin 3) Us slices_S3x256x256_S1x256x256_0_0_0 shapeCasts_S1x256x256_S256x256 q k

theorem ref_weight1 (Us : (⟨S3x256x256, .f32⟩ : BufTy).Contents (Elt Ideal)) (k q : Fin 256) :
    val_main_v42 (F := Ideal) Us (ix2 k q) = weight1 Us (ix2 k q) := by
  rw [weight1_apply]
  unfold val_main_v42 val_main_v41 val_main_v40
  refine (transpose_ix2_apply _ transposes_S256x256_S256x256_1_0 k q).trans ?_
  exact stack_slice_apply (1 : Fin 3) Us slices_S3x256x256_S1x256x256_1_0_0 shapeCasts_S1x256x256_S256x256 q k

theorem ref_weight2 (Us : (⟨S3x256x256, .f32⟩ : BufTy).Contents (Elt Ideal)) (k q : Fin 256) :
    val_main_v60 (F := Ideal) Us (ix2 k q) = weight2 Us (ix2 k q) := by
  rw [weight2_apply]
  unfold val_main_v60 val_main_v59 val_main_v58
  refine (transpose_ix2_apply _ transposes_S256x256_S256x256_1_0 k q).trans ?_
  exact stack_slice_apply (2 : Fin 3) Us slices_S3x256x256_S1x256x256_2_0_0 shapeCasts_S1x256x256_S256x256 q k

/-- The reference's first layer is `hidden0`. -/
theorem ref_hidden0 (X : (⟨S50000x256, .f32⟩ : BufTy).Contents (Elt Ideal)) (U0 : (⟨S256x256, .f32⟩ : BufTy).Contents (Elt Ideal)) (B : (⟨S256, .f32⟩ : BufTy).Contents (Elt Ideal)) :
    val_main_v11 (F := Ideal) X U0 B = hidden0 X U0 B := by
  funext i
  rw [val_main_v11_apply, val_main_v8_apply, val_main_v10_apply, val_main_v9_apply]
  unfold hidden0 affine
  have hb : biasRow B (ix2 (n0 := 1) (n1 := 256) 0 (i 1)) = B (ix1 (i 1)) := biasRow_apply B (i 1)
  rw [hb]
  have hl : ∀ k : Fin 256, lidx_main_v8 i k = ix2 (n0 := 50000) (n1 := 256) (i 0) k := fun k =>
    funext fun a => match a with | ⟨0, _⟩ => rfl | ⟨1, _⟩ => rfl
  have hr : ∀ k : Fin 256, ridx_main_v8 i k = ix2 (n0 := 256) (n1 := 256) k (i 1) := fun k =>
    funext fun a => match a with | ⟨0, _⟩ => rfl | ⟨1, _⟩ => rfl
  have hi : idx_main_v9 (idx_main_v10 i) = ix1 (i 1) := funext fun a => match a with | ⟨0, _⟩ => rfl
  rw [hi]
  show (∑ k : Fin 256, X (lidx_main_v8 i k) * U0 (ridx_main_v8 i k)) + B (ix1 (i 1)) = _
  exact congrArg (· + _) (Finset.sum_congr rfl fun k _ => by rw [hl k, hr k])

/-- Layer 1 of the reference is the kernel's hidden state 1: the same aggregate of the previous state, the same
    inner products against the transposed weights, and the quotient by the degree where the kernel multiplies by its
    reciprocal — equal once clamped at zero. -/
theorem ref_hidden1 (X : (⟨S50000x256, .f32⟩ : BufTy).Contents (Elt Ideal)) (E : (⟨S2x800000, .i32⟩ : BufTy).Contents (Elt Ideal)) (U0 : (⟨S256x256, .f32⟩ : BufTy).Contents (Elt Ideal)) (B : (⟨S256, .f32⟩ : BufTy).Contents (Elt Ideal)) (Us : (⟨S3x256x256, .f32⟩ : BufTy).Contents (Elt Ideal)) :
    val_main_v29 (F := Ideal) X E U0 B Us = hidden1 X E U0 B Us := by
  funext i
  rw [val_main_v29_apply, val_main_v28_apply, val_main_v25_apply, val_main_v27_apply, val_main_v26_apply,
    val_main_call0_v0_apply, val_main_call0_cst_apply]
  unfold hidden1
  rw [scaledRelu_reciprocal _ _ _ (fun p => degree E (ix1 p)) (fun p => reciprocal_apply E p) i]
  have hagg : val_main_v21 (F := Ideal) X E U0 B = aggregate E (hidden0 X U0 B) := by
    rw [← ref_hidden0 X U0 B]; rfl
  have hl : ∀ k : Fin 256, lidx_main_v25 i k = ix2 (n0 := 50000) (n1 := 256) (i 0) k := fun k =>
    funext fun a => match a with | ⟨0, _⟩ => rfl | ⟨1, _⟩ => rfl
  have hr : ∀ k : Fin 256, val_main_v24 (F := Ideal) Us (ridx_main_v25 i k)
      = weight0 Us (ix2 (n0 := 256) (n1 := 256) k (i 1)) := fun k => by
    rw [show ridx_main_v25 i k = ix2 (n0 := 256) (n1 := 256) k (i 1) from
      funext fun a => match a with | ⟨0, _⟩ => rfl | ⟨1, _⟩ => rfl]
    exact ref_weight0 Us k (i 1)
  have hd : val_main_v7 (F := Ideal) E (idx_main_v26 (idx_main_v27 i)) = degree E (ix1 (i 0)) := by
    rw [show idx_main_v26 (idx_main_v27 i) = ix1 (i 0) from funext fun a => match a with | ⟨0, _⟩ => rfl]
    rfl
  rw [hagg, hd]
  show max (Ideal.div (∑ k : Fin 256, aggregate E (hidden0 X U0 B) (lidx_main_v25 i k)
      * val_main_v24 (F := Ideal) Us (ridx_main_v25 i k)) (degree E (ix1 (i 0)))) (Ideal.ofBits .f32 0x00000000#32) = _
  rw [Ideal.ofBits_zero_f32]
  have hsum : (∑ k : Fin 256, aggregate E (hidden0 X U0 B) (lidx_main_v25 i k)
        * val_main_v24 (F := Ideal) Us (ridx_main_v25 i k))
      = ∑ k : Fin 256, aggregate E (hidden0 X U0 B) (ix2 (n0 := 50000) (n1 := 256) (i 0) k)
        * weight0 Us (ix2 (n0 := 256) (n1 := 256) k (i 1)) :=
    Finset.sum_congr rfl fun k _ => by rw [hl k, hr k]
  rw [hsum]

/-- Layer 2 of the reference is the kernel's hidden state 2: the same aggregate of the previous state, the same
    inner products against the transposed weights, and the quotient by the degree where the kernel multiplies by its
    reciprocal — equal once clamped at zero. -/
theorem ref_hidden2 (X : (⟨S50000x256, .f32⟩ : BufTy).Contents (Elt Ideal)) (E : (⟨S2x800000, .i32⟩ : BufTy).Contents (Elt Ideal)) (U0 : (⟨S256x256, .f32⟩ : BufTy).Contents (Elt Ideal)) (B : (⟨S256, .f32⟩ : BufTy).Contents (Elt Ideal)) (Us : (⟨S3x256x256, .f32⟩ : BufTy).Contents (Elt Ideal)) :
    val_main_v47 (F := Ideal) X E U0 B Us = hidden2 X E U0 B Us := by
  funext i
  rw [val_main_v47_apply, val_main_v46_apply, val_main_v43_apply, val_main_v45_apply, val_main_v44_apply,
    val_main_call1_v0_apply, val_main_call1_cst_apply]
  unfold hidden2
  rw [scaledRelu_reciprocal _ _ _ (fun p => degree E (ix1 p)) (fun p => reciprocal_apply E p) i]
  have hagg : val_main_v39 (F := Ideal) X E U0 B Us = aggregate E (hidden1 X E U0 B Us) := by
    rw [← ref_hidden1 X E U0 B Us]; rfl
  have hl : ∀ k : Fin 256, lidx_main_v43 i k = ix2 (n0 := 50000) (n1 := 256) (i 0) k := fun k =>
    funext fun a => match a with | ⟨0, _⟩ => rfl | ⟨1, _⟩ => rfl
  have hr : ∀ k : Fin 256, val_main_v42 (F := Ideal) Us (ridx_main_v43 i k)
      = weight1 Us (ix2 (n0 := 256) (n1 := 256) k (i 1)) := fun k => by
    rw [show ridx_main_v43 i k = ix2 (n0 := 256) (n1 := 256) k (i 1) from
      funext fun a => match a with | ⟨0, _⟩ => rfl | ⟨1, _⟩ => rfl]
    exact ref_weight1 Us k (i 1)
  have hd : val_main_v7 (F := Ideal) E (idx_main_v44 (idx_main_v45 i)) = degree E (ix1 (i 0)) := by
    rw [show idx_main_v44 (idx_main_v45 i) = ix1 (i 0) from funext fun a => match a with | ⟨0, _⟩ => rfl]
    rfl
  rw [hagg, hd]
  show max (Ideal.div (∑ k : Fin 256, aggregate E (hidden1 X E U0 B Us) (lidx_main_v43 i k)
      * val_main_v42 (F := Ideal) Us (ridx_main_v43 i k)) (degree E (ix1 (i 0)))) (Ideal.ofBits .f32 0x00000000#32) = _
  rw [Ideal.ofBits_zero_f32]
  have hsum : (∑ k : Fin 256, aggregate E (hidden1 X E U0 B Us) (lidx_main_v43 i k)
        * val_main_v42 (F := Ideal) Us (ridx_main_v43 i k))
      = ∑ k : Fin 256, aggregate E (hidden1 X E U0 B Us) (ix2 (n0 := 50000) (n1 := 256) (i 0) k)
        * weight1 Us (ix2 (n0 := 256) (n1 := 256) k (i 1)) :=
    Finset.sum_congr rfl fun k _ => by rw [hl k, hr k]
  rw [hsum]

/-- Layer 3 of the reference is the kernel's hidden state 3: the same aggregate of the previous state, the same
    inner products against the transposed weights, and the quotient by the degree where the kernel multiplies by its
    reciprocal — equal once clamped at zero. -/
theorem ref_hidden3 (X : (⟨S50000x256, .f32⟩ : BufTy).Contents (Elt Ideal)) (E : (⟨S2x800000, .i32⟩ : BufTy).Contents (Elt Ideal)) (U0 : (⟨S256x256, .f32⟩ : BufTy).Contents (Elt Ideal)) (B : (⟨S256, .f32⟩ : BufTy).Contents (Elt Ideal)) (Us : (⟨S3x256x256, .f32⟩ : BufTy).Contents (Elt Ideal)) :
    val_main_v65 (F := Ideal) X E U0 B Us = hidden3 X E U0 B Us := by
  funext i
  rw [val_main_v65_apply, val_main_v64_apply, val_main_v61_apply, val_main_v63_apply, val_main_v62_apply,
    val_main_call2_v0_apply, val_main_call2_cst_apply]
  unfold hidden3
  rw [scaledRelu_reciprocal _ _ _ (fun p => degree E (ix1 p)) (fun p => reciprocal_apply E p) i]
  have hagg : val_main_v57 (F := Ideal) X E U0 B Us = aggregate E (hidden2 X E U0 B Us) := by
    rw [← ref_hidden2 X E U0 B Us]; rfl
  have hl : ∀ k : Fin 256, lidx_main_v61 i k = ix2 (n0 := 50000) (n1 := 256) (i 0) k := fun k =>
    funext fun a => match a with | ⟨0, _⟩ => rfl | ⟨1, _⟩ => rfl
  have hr : ∀ k : Fin 256, val_main_v60 (F := Ideal) Us (ridx_main_v61 i k)
      = weight2 Us (ix2 (n0 := 256) (n1 := 256) k (i 1)) := fun k => by
    rw [show ridx_main_v61 i k = ix2 (n0 := 256) (n1 := 256) k (i 1) from
      funext fun a => match a with | ⟨0, _⟩ => rfl | ⟨1, _⟩ => rfl]
    exact ref_weight2 Us k (i 1)
  have hd : val_main_v7 (F := Ideal) E (idx_main_v62 (idx_main_v63 i)) = degree E (ix1 (i 0)) := by
    rw [show idx_main_v62 (idx_main_v63 i) = ix1 (i 0) from funext fun a => match a with | ⟨0, _⟩ => rfl]
    rfl
  rw [hagg, hd]
  show max (Ideal.div (∑ k : Fin 256, aggregate E (hidden2 X E U0 B Us) (lidx_main_v61 i k)
      * val_main_v60 (F := Ideal) Us (ridx_main_v61 i k)) (degree E (ix1 (i 0)))) (Ideal.ofBits .f32 0x00000000#32) = _
  rw [Ideal.ofBits_zero_f32]
  have hsum : (∑ k : Fin 256, aggregate E (hidden2 X E U0 B Us) (lidx_main_v61 i k)
        * val_main_v60 (F := Ideal) Us (ridx_main_v61 i k))
      = ∑ k : Fin 256, aggregate E (hidden2 X E U0 B Us) (ix2 (n0 := 50000) (n1 := 256) (i 0) k)
        * weight2 Us (ix2 (n0 := 256) (n1 := 256) k (i 1)) :=
    Finset.sum_congr rfl fun k _ => by rw [hl k, hr k]
  rw [hsum]

end Cert.Bridge

end
-- ==== Proof.lean ====
/-
  A three-layer graph network on 50000 nodes with 256 features and 800000 edges, against its plain array reference:
  the two programs end with equal results over the extended reals.

  Both programs compute, from the features `x`, the edge list `E` and the parameters `U0`, `b0`, `Us`:
      deg(p)     = the number of edges whose target is node p,
      hidden0    = x · U0 + b0,
      hidden(l+1) = relu ( (Σ over edges (s → t) of hidden(l)[s], collected at t) · Us[l]ᵀ, row p normalised by deg(p) ).
  They differ in two places. The kernel program does its dense work in four pallas_calls over 25 blocks of 2000 rows, in a
  16-bit format on the matrix unit: over the extended reals a block-wise product is the product, row by row, and a change of
  format is the identity (the region modules and `Fold`). And it normalises by MULTIPLYING row `p` with `1 / deg(p)`,
  computed once, where the reference DIVIDES by `deg(p)`. Nothing bounds the degree away from zero — the precondition speaks
  of the float inputs only, and a node may have no incoming edge — and at `deg = 0` the two quotients do differ
  (`0 · (1/0) = 0` against `0/0 = ⊥`); but both programs clamp at zero next, and clamped they agree for EVERY degree
  (`QuotientLaw`). The gather and scatter-add over the edges are the same operations in both programs and are never opened
  (`Bridge`). No step distributes a product over a sum, so the precondition is not used beyond the frames.

  The claims: the three frames (each program runs to completion, nothing faulting, its arguments unchanged); the kernel's
  idealization rewrote nothing, so there is nothing to preserve; and the two idealized programs, from memories agreeing on
  the arguments, end with the third hidden state of those arguments in their result buffers.
-/
import proofs.«171556_j438086664818_1_alg».proof.Defs
import proofs.«171556_j438086664818_1_alg».proof.Proof.Gen.Kernel
import proofs.«171556_j438086664818_1_alg».proof.Proof.Gen.KernelIdeal
import proofs.«171556_j438086664818_1_alg».proof.Proof.Gen.ReferenceIdeal
import proofs.«171556_j438086664818_1_alg».proof.Proof.Gen.ReferenceIdeal.Run
import proofs.«171556_j438086664818_1_alg».proof.Proof.Gen.ReferenceIdeal.Read
import proofs.«171556_j438086664818_1_alg».proof.Proof.Gen.Pre_finite_inputs
import proofs.«171556_j438086664818_1_alg».proof.Proof.KernelFrameP
import proofs.«171556_j438086664818_1_alg».proof.Proof.KernelIdealFrameP
import proofs.«171556_j438086664818_1_alg».proof.Proof.ResultRun
import proofs.«171556_j438086664818_1_alg».proof.Proof.Fold
import proofs.«171556_j438086664818_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.GenP.frame m ρ

/-- So does its idealization. -/
theorem frame_kernel_ideal : Cert.frame_KernelIdeal := fun m ρ _ => Cert.KernelIdeal.GenP.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the five arguments, both idealized programs end with `hidden3` of those arguments in their
    result buffers: the kernel program by its run read back through its segments, the reference by its run read stage by
    stage, the arguments' agreement carrying one to the other. -/
theorem algebraic : Cert.algebraic_KernelIdeal_ReferenceIdeal := by
  intro m ρ m' ρ' _ hagree
  refine ⟨fun c => Cert.KernelIdeal.Fold.hidden3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Fold.result_eq m ρ c), (h c).2⟩)
      (Cert.KernelIdeal.ResultRun.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq, Cert.Bridge.ref_hidden3, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
